-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x2048 : Shape := ⟨3, ![8, 2048, 2048]⟩
abbrev S8192 : Shape := ⟨1, ![8192]⟩
abbrev S8x2048 : Shape := ⟨2, ![8, 2048]⟩
abbrev S8x2048x16 : Shape := ⟨3, ![8, 2048, 16]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S8x2048x16 : S_.BroadcastsInDim S8x2048x16 (![] : Fin 0 → Fin S8x2048x16.rank)
  reducesTo_S8x2048x16_S_d0_1_2 : S8x2048x16.ReducesTo [0, 1, 2] S_

variable [Facts]

def fn {F : FTy → Type} [FloatOps F] (main_arg0 : IVec S8192x2048 32) (main_arg1 : IVec S8x2048x2048 32) (main_arg2 : FVec F S8192 .f32) (main_arg3 : FVec F S8x2048 .f32) (main_arg4 : FVec F S8x2048x16 .f32) : IVec S_ 1 :=
  let main_v0 : FVec F S8192 .f32 := Host.absf main_arg2
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8x2048 .f32 := Host.absf main_arg3
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S8x2048x16 .f32 := Host.absf main_arg4
  let main_cst_2 : FVec F S_ .f32 := constant S_ .f32 0x7F800000#32
  let main_v10 : FVec F S8x2048x16 .f32 := broadcastInDim S8x2048x16 ![] bcast_S_S8x2048x16 main_cst_2
  let main_v11 : IVec S8x2048x16 1 := cmpf .olt main_v9 main_v10
  let main_c_3 : IVec S_ 1 := constantI S_ 1 1#1
  let main_v12 : IVec S_ 1 := (fun x v => Host.reduce IntOp.andi x v reducesTo_S8x2048x16_S_d0_1_2 h_S_) main_v11 main_c_3
  let main_v13 : IVec S_ 1 := andi main_v8 main_v12
  main_v13
-- ==== Kernel.lean ====
abbrev S8192x2048 : Shape := ⟨2, ![8192, 2048]⟩
abbrev S8x2048x2048 : Shape := ⟨3, ![8, 2048, 2048]⟩
abbrev S8192 : Shape := ⟨1, ![8192]⟩
abbrev S8x2048 : Shape := ⟨2, ![8, 2048]⟩
abbrev S8x2048x16 : Shape := ⟨3, ![8, 2048, 16]⟩
abbrev S8x1024x2048 : Shape := ⟨3, ![8, 1024, 2048]⟩
abbrev S8x1024x1 : Shape := ⟨3, ![8, 1024, 1]⟩
abbrev S8x2048x1 : Shape := ⟨3, ![8, 2048, 1]⟩
abbrev S1x1024x2048 : Shape := ⟨3, ![1, 1024, 2048]⟩
abbrev S1x256x2048 : Shape := ⟨3, ![1, 256, 2048]⟩
abbrev S1x256x16 : Shape := ⟨3, ![1, 256, 16]⟩
abbrev S1x1024x1 : Shape := ⟨3, ![1, 1024, 1]⟩
abbrev S1x1024x256 : Shape := ⟨3, ![1, 1024, 256]⟩
abbrev S1024x2048 : Shape := ⟨2, ![1024, 2048]⟩
abbrev S256x2048 : Shape := ⟨2, ![256, 2048]⟩
abbrev S256x16 : Shape := ⟨2, ![256, 16]⟩
abbrev S1024x1 : Shape := ⟨2, ![1024, 1]⟩
abbrev S256x16x1 : Shape := ⟨3, ![256, 16, 1]⟩
abbrev S256x16x128 : Shape := ⟨3, ![256, 16, 128]⟩
abbrev S1024x256 : Shape := ⟨2, ![1024, 256]⟩

abbrev nBuf : Space → Nat
  | .hbm => 12
  | .vmem => 11
  | .smem => 0
  | _ => 0

abbrev bufTy : (tb : Table) → Fin (tcTables nBuf tb) → BufTy
  | .hbm, ⟨0, _⟩ => ⟨S8192x2048, .i32⟩
  | .hbm, ⟨1, _⟩ => ⟨S8x2048x2048, .i32⟩
  | .hbm, ⟨2, _⟩ => ⟨S8192, .f32⟩
  | .hbm, ⟨3, _⟩ => ⟨S8x2048, .f32⟩
  | .hbm, ⟨4, _⟩ => ⟨S8x2048x16, .f32⟩
  | .hbm, ⟨5, _⟩ => ⟨S8x1024x2048, .i32⟩
  | .hbm, ⟨6, _⟩ => ⟨S8x1024x1, .f32⟩
  | .hbm, ⟨7, _⟩ => ⟨S8x2048x1, .f32⟩
  | .hbm, ⟨8, _⟩ => ⟨S8x2048x16, .f32⟩
  | .hbm, ⟨9, _⟩ => ⟨S8x2048x16, .f32⟩
  | .hbm, ⟨10, _⟩ => ⟨S8x1024x2048, .f32⟩
  | .hbm, ⟨11, _⟩ => ⟨S8192x2048, .f32⟩
  | .local _ .vmem, ⟨0, _⟩ => ⟨S1x1024x2048, .i32⟩
  | .local _ .vmem, ⟨1, _⟩ => ⟨S1x1024x2048, .i32⟩
  | .local _ .vmem, ⟨2, _⟩ => ⟨S1x256x2048, .i32⟩
  | .local _ .vmem, ⟨3, _⟩ => ⟨S1x256x2048, .i32⟩
  | .local _ .vmem, ⟨4, _⟩ => ⟨S1x256x16, .f32⟩
  | .local _ .vmem, ⟨5, _⟩ => ⟨S1x256x16, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x256, .f32⟩
  | .local _ .vmem, ⟨9, _⟩ => ⟨S1x1024x256, .f32⟩
  | .local _ .vmem, ⟨10, _⟩ => ⟨S1024x2048, .bf16⟩
  | _, _ => ⟨S8192x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8192x2048_S8x1024x2048 : S8192x2048.ShapeCasts S8x1024x2048
  shapeCasts_S8192_S8x1024x1 : S8192.ShapeCasts S8x1024x1
  bcast_S8x2048_S8x2048x1_0_1 : S8x2048.BroadcastsInDim S8x2048x1 (![0, 1] : Fin 2 → Fin S8x2048x1.rank)
  bcast_S8x2048x1_S8x2048x16_0_1_2 : S8x2048x1.BroadcastsInDim S8x2048x16 (![0, 1, 2] : Fin 3 → Fin S8x2048x16.rank)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  bitsLt_bf16_f32 : FTy.bits .bf16 < FTy.bits .f32
  shapeCasts_S256x16_S256x16x1 : S256x16.ShapeCasts S256x16x1
  shapeCasts_S256x16x1_S256x16x1 : S256x16x1.ShapeCasts S256x16x1
  broadcasts_S256x16x1_S256x16x128 : S256x16x1.Broadcasts S256x16x128
  shapeCasts_S256x16x128_S256x2048 : S256x16x128.ShapeCasts S256x2048
  broadcasts_S1024x1_S1024x256 : S1024x1.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  shapeCasts_S8x1024x2048_S8192x2048 : S8x1024x2048.ShapeCasts S8192x2048
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .i32 = 32 ∨ (Rect.block (s := S8x1024x2048) S1x1024x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x2048x2048.size a
  hwx0_1 : ∀ i : grid0.Coords, EltTy.bits .i32 = 32 ∨ (Rect.block (s := S8x2048x2048) S1x256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x16.size a ≤ S8x2048x16.size a
  hwx0_2 : ∀ i : grid0.Coords, EltTy.bits .f32 = 32 ∨ (Rect.block (s := S8x2048x16) S1x256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S8x1024x1.size a
  hwx0_3 : ∀ i : grid0.Coords, EltTy.bits .f32 = 32 ∨ (Rect.block (s := S8x1024x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x1024x2048.size a
  hwx0_4 : ∀ i : grid0.Coords, EltTy.bits .f32 = 32 ∨ (Rect.block (s := S8x1024x2048) S1x1024x256.size (cc0_transform_4 i) (hinb0_4 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8x2048x2048 : Shape := ⟨3, ![8, 2048, 2048]⟩
abbrev S8192 : Shape := ⟨1, ![8192]⟩
abbrev S8x2048 : Shape := ⟨2, ![8, 2048]⟩
abbrev S8x2048x16 : Shape := ⟨3, ![8, 2048, 16]⟩
abbrev S8x1024x2048 : Shape := ⟨3, ![8, 1024, 2048]⟩
abbrev S8x2048x16x128 : Shape := ⟨4, ![8, 2048, 16, 128]⟩
abbrev S8x1024x1 : Shape := ⟨3, ![8, 1024, 1]⟩
abbrev S8x1x2048 : Shape := ⟨3, ![8, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .i32⟩
  | .hbm, ⟨1, _⟩ => ⟨S8x2048x2048, .i32⟩
  | .hbm, ⟨2, _⟩ => ⟨S8192, .f32⟩
  | .hbm, ⟨3, _⟩ => ⟨S8x2048, .f32⟩
  | .hbm, ⟨4, _⟩ => ⟨S8x2048x16, .f32⟩
  | .hbm, ⟨5, _⟩ => ⟨S8x1024x2048, .i32⟩
  | .hbm, ⟨6, _⟩ => ⟨S8x1024x2048, .f32⟩
  | .hbm, ⟨7, _⟩ => ⟨S8x2048x2048, .f32⟩
  | .hbm, ⟨8, _⟩ => ⟨S8x2048x16x128, .f32⟩
  | .hbm, ⟨9, _⟩ => ⟨S8x2048x2048, .f32⟩
  | .hbm, ⟨10, _⟩ => ⟨S8x2048x2048, .f32⟩
  | .hbm, ⟨11, _⟩ => ⟨S8x1024x2048, .f32⟩
  | .hbm, ⟨12, _⟩ => ⟨S8x1024x1, .f32⟩
  | .hbm, ⟨13, _⟩ => ⟨S8x1024x2048, .f32⟩
  | .hbm, ⟨14, _⟩ => ⟨S8x1024x2048, .f32⟩
  | .hbm, ⟨15, _⟩ => ⟨S8x1x2048, .f32⟩
  | .hbm, ⟨16, _⟩ => ⟨S8x1024x2048, .f32⟩
  | .hbm, ⟨17, _⟩ => ⟨S8x1024x2048, .f32⟩
  | .hbm, ⟨18, _⟩ => ⟨S8192x2048, .f32⟩
  | _, _ => ⟨S8192x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  bcast_S8x2048x16_S8x2048x16x128_0_1_2 : S8x2048x16.BroadcastsInDim S8x2048x16x128 (![0, 1, 2] : Fin 3 → Fin S8x2048x16x128.rank)
  shapeCasts_S8x2048x16x128_S8x2048x2048 : S8x2048x16x128.ShapeCasts S8x2048x2048
  shapeCasts_S8192_S8x1024x1 : S8192.ShapeCasts S8x1024x1
  bcast_S8x1024x1_S8x1024x2048_0_1_2 : S8x1024x1.BroadcastsInDim S8x1024x2048 (![0, 1, 2] : Fin 3 → Fin S8x1024x2048.rank)
  bcast_S8x2048_S8x1x2048_0_2 : S8x2048.BroadcastsInDim S8x1x2048 (![0, 2] : Fin 2 → Fin S8x1x2048.rank)
  bcast_S8x1x2048_S8x1024x2048_0_1_2 : S8x1x2048.BroadcastsInDim S8x1024x2048 (![0, 1, 2] : Fin 3 → Fin S8x1024x2048.rank)
  shapeCasts_S8x1024x2048_S8192x2048 : S8x1024x2048.ShapeCasts S8192x2048
  dot_S8x1024x2048_S8x2048x2048_S8x1024x2048_2_2_1_1_0_0_wf : DotDims.WF S8x1024x2048 S8x2048x2048 S8x1024x2048 [2] [2] [1] [1] [0] [0]

variable [Facts₀]

def dot_S8x1024x2048_S8x2048x2048_S8x1024x2048_2_2_1_1_0_0 : DotDims S8x1024x2048 S8x2048x2048 S8x1024x2048 where
  lhsContracting := [2]
  rhsContracting := [2]
  lhsNonContracting := [1]
  rhsNonContracting := [1]
  lhsBatch := [0]
  rhsBatch := [0]
  wf := dot_S8x1024x2048_S8x2048x2048_S8x1024x2048_2_2_1_1_0_0_wf

class Facts : Prop extends Facts₀ where

variable [Facts]
-- ==== Proof.KernelPieces.lean ====
/-
  What one run of the kernel body leaves behind, as values of what it read.

  The body has two control cases. At the first output tile of an expert it converts the expert's whole activation block
  from integers to floats and stores the result in a buffer that it keeps between grid points; at every other tile it
  leaves that buffer alone. In both cases it then forms the output tile from the kept activations, the tile's weights,
  the tile's group scales and the token scales. Written as pure functions of the blocks read: the kept buffer ends at the
  converted activation block (first tile) or unchanged (other tiles), and the output tile is the same function of the
  kept activations in both cases.
-/
import proofs.«133291_j65936337928889_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First tile of an expert: the kept buffer ends at the activation block converted to floats. -/
theorem kept_first (c : Dev nD) (i : grid0.Coords) (arg2 : Memref sig .tc .vmem S1x1024x2048 .i32) (harg2 : arg2.IsWhole) (arg3 : Memref sig .tc .vmem S1x256x2048 .i32) (harg3 : arg3.IsWhole) (arg4 : Memref sig .tc .vmem S1x256x16 .f32) (harg4 : arg4.IsWhole) (arg5 : Memref sig .tc .vmem S1x1024x1 .f32) (harg5 : arg5.IsWhole) (arg6 : Memref sig .tc .vmem S1x1024x256 .f32) (harg6 : arg6.IsWhole) (arg7 : Memref sig .tc .vmem S1024x2048 .bf16) (harg7 : arg7.IsWhole) (hc0 : cond0_0 i)
    (x0 : Vec F S1x1024x2048 .i32) (x1 : Vec F S1x256x2048 .i32) (x2 : Vec F S1x256x16 .f32) (x3 : Vec F S1x1024x1 .f32) :
    sout0_A_0 c i arg2 harg2 arg3 harg3 arg4 harg4 arg5 harg5 arg6 harg6 arg7 harg7 hc0 x0 x1 x2 x3 = k0_pay1 x0 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg2.read_unread, View.ld_unit_zero (S := S1x1024x2048) hz3]

/-- First tile of an expert: the output tile is formed from the activations just converted (the body reads back what it
    has just stored in the kept buffer). -/
theorem tile_first (c : Dev nD) (i : grid0.Coords) (arg2 : Memref sig .tc .vmem S1x1024x2048 .i32) (harg2 : arg2.IsWhole) (arg3 : Memref sig .tc .vmem S1x256x2048 .i32) (harg3 : arg3.IsWhole) (arg4 : Memref sig .tc .vmem S1x256x16 .f32) (harg4 : arg4.IsWhole) (arg5 : Memref sig .tc .vmem S1x1024x1 .f32) (harg5 : arg5.IsWhole) (arg6 : Memref sig .tc .vmem S1x1024x256 .f32) (harg6 : arg6.IsWhole) (arg7 : Memref sig .tc .vmem S1024x2048 .bf16) (harg7 : arg7.IsWhole) (hc0 : cond0_0 i)
    (x0 : Vec F S1x1024x2048 .i32) (x1 : Vec F S1x256x2048 .i32) (x2 : Vec F S1x256x16 .f32) (x3 : Vec F S1x1024x1 .f32) :
    out0_A_4 c i arg2 harg2 arg3 harg3 arg4 harg4 arg5 harg5 arg6 harg6 arg7 harg7 hc0 x0 x1 x2 x3 = k0_pay2 (k0_pay1 x0) x1 x2 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3, View.readCov_unit_zero (S := S1024x2048) _ hz2]
  simp only [View.readAt_eq_ld, harg2.read_unread, harg3.read_unread, harg4.read_unread, harg5.read_unread,
    View.ld_unit_zero (S := S1x1024x2048) hz3, View.ld_unit_zero (S := S1x256x2048) hz3,
    View.ld_unit_zero (S := S1x256x16) hz3, View.ld_unit_zero (S := S1x1024x1) hz3]

/-- Any other tile: the output tile is formed from the activations the kept buffer already holds. -/
theorem tile_later (c : Dev nD) (i : grid0.Coords) (arg2 : Memref sig .tc .vmem S1x1024x2048 .i32) (harg2 : arg2.IsWhole) (arg3 : Memref sig .tc .vmem S1x256x2048 .i32) (harg3 : arg3.IsWhole) (arg4 : Memref sig .tc .vmem S1x256x16 .f32) (harg4 : arg4.IsWhole) (arg5 : Memref sig .tc .vmem S1x1024x1 .f32) (harg5 : arg5.IsWhole) (arg6 : Memref sig .tc .vmem S1x1024x256 .f32) (harg6 : arg6.IsWhole) (arg7 : Memref sig .tc .vmem S1024x2048 .bf16) (harg7 : arg7.IsWhole) (hc0 : ¬cond0_0 i)
    (x0 : Vec F S1x1024x2048 .i32) (x1 : Vec F S1x256x2048 .i32) (x2 : Vec F S1x256x16 .f32) (x3 : Vec F S1x1024x1 .f32) (xs0 : Vec F S1024x2048 .bf16) :
    out0_B_4 c i arg2 harg2 arg3 harg3 arg4 harg4 arg5 harg5 arg6 harg6 arg7 harg7 hc0 x0 x1 x2 x3 xs0 = k0_pay2 xs0 x1 x2 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz3]
  simp only [View.readAt_eq_ld, harg3.read_unread, harg4.read_unread, harg5.read_unread, harg7.read_unread,
    View.ld_unit_zero (S := S1024x2048) hz2, View.ld_unit_zero (S := S1x256x2048) hz3,
    View.ld_unit_zero (S := S1x256x16) hz3, View.ld_unit_zero (S := S1x1024x1) hz3]

end Cert.KernelIdeal.Pieces

end
-- ==== Proof.Spec.lean ====
/-
  The mathematics of the grouped, group-scaled matrix product, stated without any program.

  Eight experts; expert `e` owns the token rows `e·1024 … e·1024 + 1023` of the activation matrix `a` (integers)
  and its own weight matrix `w e` (integers, one row per output channel `n`). The weights are scaled in groups of
  128 consecutive input channels: input channel `k` of output channel `n` carries the scale `g (e, n, k / 128)`. The
  result at token `(e, r)` and channel `n` is the scaled inner product over the 2048 input channels, times the token's
  scale `tok` and the channel's scale `pc`.

  Two arrangements of that number are stated: `scaledInside`, where the channel scale multiplies every group scale
  before the sum and the token scale multiplies the sum; and `scaledOutside`, where the sum is over the group-scaled
  weights alone and both scales multiply it afterwards. They agree whenever the three float arrays hold real
  numbers (distributivity of the product over a finite sum of reals).
-/
import Idealize.ShloMosaic.Lib.ValueIdx
import Idealize.ShloMosaic.PureOps.Ideal

noncomputable section

open scoped BigOperators

namespace Cert.MoeSpec

open Idealize.ShloMosaic Idealize.ShloMosaic.ValueIdx

/-- The activation matrix: 8192 token rows of 2048 input channels. -/
abbrev ShA : Shape := ⟨2, ![8192, 2048]⟩
/-- The weights: per expert, 2048 output channels of 2048 input channels. -/
abbrev ShW : Shape := ⟨3, ![8, 2048, 2048]⟩
/-- One scale per token row. -/
abbrev ShTok : Shape := ⟨1, ![8192]⟩
/-- One scale per expert and output channel. -/
abbrev ShChan : Shape := ⟨2, ![8, 2048]⟩
/-- One scale per expert, output channel and group of 128 input channels. -/
abbrev ShGrp : Shape := ⟨3, ![8, 2048, 16]⟩
/-- The result: per expert, 1024 token rows of 2048 output channels. -/
abbrev ShOut : Shape := ⟨3, ![8, 1024, 2048]⟩

/-- The row of the activation matrix that holds token `r` of expert `e`. -/
def tokRow (e : Fin 8) (r : Fin 1024) : Fin 8192 := ⟨e.val * 1024 + r.val, by omega⟩

/-- The group of 128 consecutive input channels that input channel `k` lies in. -/
def grp (k : Fin 2048) : Fin 16 := ⟨k.val / 128, by omega⟩

/-- The channel scale folded into every group scale before the sum; the token scale applied to the sum. -/
def scaledInside (a : ShA.Idx → BitVec 32) (w : ShW.Idx → BitVec 32) (tok : ShTok.Idx → EReal)
    (pc : ShChan.Idx → EReal) (g : ShGrp.Idx → EReal) : ShOut.Idx → EReal := fun i =>
  (∑ k : Fin 2048, (((a (ix2 (tokRow (i 0) (i 1)) k)).toInt : ℝ) : EReal)
      * ((((w (ix3 (i 0) (i 2) k)).toInt : ℝ) : EReal) * (g (ix3 (i 0) (i 2) (grp k)) * pc (ix2 (i 0) (i 2)))))
    * tok (ix1 (tokRow (i 0) (i 1)))

/-- The sum over the group-scaled weights alone; the token scale, then the channel scale, applied to it. -/
def scaledOutside (a : ShA.Idx → BitVec 32) (w : ShW.Idx → BitVec 32) (tok : ShTok.Idx → EReal)
    (pc : ShChan.Idx → EReal) (g : ShGrp.Idx → EReal) : ShOut.Idx → EReal := fun i =>
  ((∑ k : Fin 2048, (((a (ix2 (tokRow (i 0) (i 1)) k)).toInt : ℝ) : EReal)
      * ((((w (ix3 (i 0) (i 2) k)).toInt : ℝ) : EReal) * g (ix3 (i 0) (i 2) (grp k))))
    * tok (ix1 (tokRow (i 0) (i 1)))) * pc (ix2 (i 0) (i 2))

end Cert.MoeSpec

end
-- ==== Proof.KernelBlocks.lean ====
/-
  The kernel's grid, block by block: which part of each array a grid point reads and writes, and what the kernel's two
  buffers (the converted activations it keeps, and the output tile) hold after each point.

  The grid is 8 experts by 8 output tiles of 256 channels, the tile index moving fastest, so point `t` works on expert
  `t / 8` and tile `t % 8`. The activation and token-scale blocks depend on the expert alone; the weight and group-scale
  blocks on expert and tile; the output block is the expert's 1024 rows by the tile's 256 channels, and the 64 output
  blocks tile the result array.
-/
import proofs.«133291_j65936337928889_2_alg».proof.Proof.KernelPieces
import proofs.«133291_j65936337928889_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The expert a grid point works on, and the output tile (of 256 channels) it produces: the grid is 8 experts by
    8 tiles, the tile moving fastest. -/
def expert (t : Fin cfg0.N) : Fin 8 := ⟨t.val / 8, by have h : t.val < 64 := lt_of_lt_of_eq t.isLt (show cfg0.N = 64 from N_0); omega⟩
def tile (t : Fin cfg0.N) : Fin 8 := ⟨t.val % 8, by omega⟩
/-- Output channel `n` of tile `J`. -/
def chan (J : Fin 8) (n : Fin 256) : Fin 2048 := ⟨J.val * 256 + n.val, by omega⟩

/-- The printed index maps, decided over the grid. -/
theorem index_facts : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = t.val % 8) :=
  (by decide +kernel : ∀ t : Fin grid0.N, _)

variable (c : Dev nD)

/-! ## The windows' blocks read at coordinates -/

/-- The activation block at a point is the point's expert's slab of the activations as the region finds them. -/
theorem acts_block (t : Fin cfg0.N) (u : Fin 1) (r : Fin 1024) (k : Fin 2048) :
    (iblk m c 0 t : Vec F S1x1024x2048 .i32) (ix3 u r k) = (V m c main_v0 : S8x1024x2048.Idx → Elt F .i32) (ix3 (expert t) r k) := by
  obtain ⟨⟨e0, e1, e2⟩, -⟩ := index_facts t
  unfold iblk
  rw [View.read_apply]
  show V m c main_v0 (((cfg0.win 0).blk t).view.emb (ix3 u r k)) = _
  congr 1
  funext a
  apply Fin.ext
  have hu : u.val = 0 := by omega
  match a with
  | ⟨0, _⟩ => show win0_0.index t (0 : Fin 3) * 1 + 1 * u.val = t.val / 8; omega
  | ⟨1, _⟩ => show win0_0.index t (1 : Fin 3) * 1024 + 1 * r.val = r.val; omega
  | ⟨2, _⟩ => show win0_0.index t (2 : Fin 3) * 2048 + 1 * k.val = k.val; omega

/-- The weight block at a point: the point's expert, the 256 output channels of the point's tile, all input channels. -/
theorem weights_block (t : Fin cfg0.N) (u : Fin 1) (n : Fin 256) (k : Fin 2048) :
    (iblk m c 1 t : Vec F S1x256x2048 .i32) (ix3 u n k) = (V m c main_arg1 : S8x2048x2048.Idx → Elt F .i32) (ix3 (expert t) (chan (tile t) n) k) := by
  obtain ⟨-, ⟨e0, e1, e2⟩, -⟩ := index_facts t
  unfold iblk
  rw [View.read_apply]
  show V m c main_arg1 (((cfg0.win 1).blk t).view.emb (ix3 u n k)) = _
  congr 1
  funext a
  apply Fin.ext
  have hu : u.val = 0 := by omega
  match a with
  | ⟨0, _⟩ => show win0_1.index t (0 : Fin 3) * 1 + 1 * u.val = t.val / 8; omega
  | ⟨1, _⟩ => show win0_1.index t (1 : Fin 3) * 256 + 1 * n.val = t.val % 8 * 256 + n.val; omega
  | ⟨2, _⟩ => show win0_1.index t (2 : Fin 3) * 2048 + 1 * k.val = k.val; omega

/-- The group-scale block at a point: the same expert and channels, all 16 groups. -/
theorem scales_block (t : Fin cfg0.N) (u : Fin 1) (n : Fin 256) (j : Fin 16) :
    (iblk m c 2 t : Vec F S1x256x16 .f32) (ix3 u n j) = (V m c main_v4 : S8x2048x16.Idx → Elt F .f32) (ix3 (expert t) (chan (tile t) n) j) := by
  obtain ⟨-, -, ⟨e0, e1, e2⟩, -⟩ := index_facts t
  unfold iblk
  rw [View.read_apply]
  show V m c main_v4 (((cfg0.win 2).blk t).view.emb (ix3 u n j)) = _
  congr 1
  funext a
  apply Fin.ext
  have hu : u.val = 0 := by omega
  match a with
  | ⟨0, _⟩ => show win0_2.index t (0 : Fin 3) * 1 + 1 * u.val = t.val / 8; omega
  | ⟨1, _⟩ => show win0_2.index t (1 : Fin 3) * 256 + 1 * n.val = t.val % 8 * 256 + n.val; omega
  | ⟨2, _⟩ => show win0_2.index t (2 : Fin 3) * 16 + 1 * j.val = j.val; omega

/-- The token-scale block at a point: the point's expert's 1024 token scales. -/
theorem tokens_block (t : Fin cfg0.N) (u : Fin 1) (r : Fin 1024) (v : Fin 1) :
    (iblk m c 3 t : Vec F S1x1024x1 .f32) (ix3 u r v) = (V m c main_v1 : S8x1024x1.Idx → Elt F .f32) (ix3 (expert t) r v) := by
  obtain ⟨-, -, -, ⟨e0, e1, e2⟩, -⟩ := index_facts t
  unfold iblk
  rw [View.read_apply]
  show V m c main_v1 (((cfg0.win 3).blk t).view.emb (ix3 u r v)) = _
  congr 1
  funext a
  apply Fin.ext
  have hu : u.val = 0 := by omega
  have hv : v.val = 0 := by omega
  match a with
  | ⟨0, _⟩ => show win0_3.index t (0 : Fin 3) * 1 + 1 * u.val = t.val / 8; omega
  | ⟨1, _⟩ => show win0_3.index t (1 : Fin 3) * 1024 + 1 * r.val = r.val; omega
  | ⟨2, _⟩ => show win0_3.index t (2 : Fin 3) * 1 + 1 * v.val = v.val; omega

/-- Two points of one expert see the same activation block. -/
theorem acts_block_congr (t t' : Fin cfg0.N) (h : t.val / 8 = t'.val / 8) :
    (iblk m c 0 t : Vec F S1x1024x2048 .i32) = (iblk m c 0 t' : Vec F S1x1024x2048 .i32) := by
  funext j
  obtain ⟨u, r, k, rfl⟩ : ∃ (u : Fin 1) (r : Fin 1024) (k : Fin 2048), j = ix3 u r k := ⟨j 0, j 1, j 2, eq_ix3 j⟩
  rw [acts_block, acts_block]
  have he : expert t = expert t' := Fin.ext h
  rw [he]

/-! ## What the kept buffer and the output tile hold after each point -/

/-- After every point the kept buffer holds the converted activations of the point's expert, and the output's staging
    buffer the tile formed from them: by induction on the point — the first tile of an expert converts, the later
    tiles find what the point before left, and that point has the same expert. -/
theorem after_point : ∀ (n : ℕ) (h : n < cfg0.N),
    outsAt0 m c n h = (k0_pay2 (k0_pay1 (iblk m c 0 ⟨n, h⟩)) (iblk m c 1 ⟨n, h⟩) (iblk m c 2 ⟨n, h⟩) (iblk m c 3 ⟨n, h⟩),
      k0_pay1 (iblk m c 0 ⟨n, h⟩))
  | 0, h => by
    rw [outsAt0_A m c ⟨0, h⟩ rfl, Pieces.tile_first, Pieces.kept_first]
  | n + 1, h => by
    by_cases h0 : (n + 1) % 8 = 0
    · rw [outsAt0_A m c ⟨n + 1, h⟩ h0, Pieces.tile_first, Pieces.kept_first]
    · rw [outsAt0_B m c ⟨n + 1, h⟩ h0, Pieces.tile_later]
      unfold sout0_B_0
      have ih := after_point n (Nat.lt_of_succ_lt h)
      have hs : (outsAt0 m c ((⟨n + 1, h⟩ : Fin cfg0.N).val - 1) (Nat.lt_of_le_of_lt (Nat.sub_le _ _) (⟨n + 1, h⟩ : Fin cfg0.N).isLt)).2
          = k0_pay1 (iblk m c 0 ⟨n + 1, h⟩) := by
        show (outsAt0 m c n _).2 = _
        rw [ih]
        show k0_pay1 (iblk m c 0 ⟨n, _⟩) = _
        rw [acts_block_congr m c ⟨n, Nat.lt_of_succ_lt h⟩ ⟨n + 1, h⟩ (by show n / 8 = (n + 1) / 8; omega)]
      rw [hs]

/-! ## The output's blocks tile the result array -/

/-- An index of the result array is in point `t`'s block iff each coordinate is in the block's range on its axis. -/
theorem mem_out_block (t : Fin cfg0.N) (i : S8x1024x2048.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v5).slice (win0_4.rect t)).set ↔ _
  rw [View.set_slice_whole, Rect.mem_set_unit]
  exact Iff.rfl

/-- Every index of the result array lies in the block of the point (its expert, its channel's tile). -/
theorem covered (i : S8x1024x2048.Idx) : ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 2048 := (i 2).isLt
  have hN : cfg0.N = 64 := N_0
  refine ⟨⟨(i 0).val * 8 + (i 2).val / 256, by rw [hN]; omega⟩, flush0_4 _, ?_⟩
  rw [mem_out_block]
  obtain ⟨-, -, -, -, ⟨e0, e1, e2⟩⟩ := index_facts ⟨(i 0).val * 8 + (i 2).val / 256, by rw [hN]; omega⟩
  intro a
  match a with
  | ⟨0, _⟩ => show win0_4.index _ (0 : Fin 3) * 1 ≤ (i 0).val ∧ (i 0).val < win0_4.index _ (0 : Fin 3) * 1 + 1; rw [e0]; dsimp only; omega
  | ⟨1, _⟩ => show win0_4.index _ (1 : Fin 3) * 1024 ≤ (i 1).val ∧ (i 1).val < win0_4.index _ (1 : Fin 3) * 1024 + 1024; rw [e1]; omega
  | ⟨2, _⟩ => show win0_4.index _ (2 : Fin 3) * 256 ≤ (i 2).val ∧ (i 2).val < win0_4.index _ (2 : Fin 3) * 256 + 256; rw [e2]; dsimp only; omega

end Cert.KernelIdeal.Blocks

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.LibTrailingAxesMerged.lean ====
/-
  One layout operation on a rank-3 array read at an index given by coordinates: the two TRAILING axes merged into one.
  A shape cast keeps row-major positions, and entry (n, j, l) of an [a, b, c] array and entry (n, j·c + l) of the
  [a, b·c] array sit at the same position n·b·c + j·c + l.
-/
import Idealize.ShloMosaic.Lib.ValueIdx
import Idealize.ShloMosaic.Lib.Pipeline.Value

namespace Idealize.ShloMosaic.ValueIdx

open Idealize.ShloMosaic

/-- Merging the two trailing axes of an [a, b, c] array into [a, b·c]: entry (n, j·c + l) is entry (n, j, l). -/
theorem shapeCast_abc_ap_apply {α : Type} {a b c bc : ℕ} (x : (⟨3, ![a, b, c]⟩ : Shape).Idx → α)
    (h : (⟨3, ![a, b, c]⟩ : Shape).ShapeCasts ⟨2, ![a, bc]⟩) (n : Fin a) (j : Fin b) (l : Fin c) (k : Fin bc)
    (hbc : bc = b * c) (hk : k.val = j.val * c + l.val) :
    shapeCast ⟨2, ![a, bc]⟩ x h (ix2 n k) = x (ix3 n j l) :=
  shapeCast_apply x h _ _ (by
    rw [Shape.rowMajor_val_three, Shape.rowMajor_val_two]
    show (n.val * b + j.val) * c + l.val = n.val * bc + k.val
    rw [hk, hbc, Nat.add_mul, Nat.mul_assoc, Nat.add_assoc])

end Idealize.ShloMosaic.ValueIdx
-- ==== Proof.KernelPayload.lean ====
/-
  The arithmetic of the kernel's body read one entry at a time, at the exact (extended-real) instance.

  The body holds two pure values. The first is the activation block converted from integers to floats; its entry
  (r, k) is the integer entry (0, r, k) of the block read as a real number. The second is the output block: the
  integer weights converted to floats and multiplied by their group scales (the scale of input channel k is the one
  of its group k / 128, laid out by a broadcast over 128 lanes followed by a merge of the last two axes), the matrix
  product of the cached activations with these scaled weights over the 2048 input channels, and the product of that
  with the token's scale. Its entry (0, r, n) is the sum over k of activation (r, k) times weight (n, k) times the group
  scale (n, k / 128), times the scale of token r.
-/
import proofs.«133291_j65936337928889_2_alg».proof.Proof.Gen.KernelIdeal.Skeleton
import proofs.«133291_j65936337928889_2_alg».proof.Proof.Spec
import proofs.«133291_j65936337928889_2_alg».proof.Proof.LibColumnForms
import proofs.«133291_j65936337928889_2_alg».proof.Proof.LibRankThreeForms
import proofs.«133291_j65936337928889_2_alg».proof.Proof.LibTrailingAxesMerged
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadValue

open Cert.KernelIdeal Cert.KernelIdeal.Gen Idealize.ShloMosaic Idealize.ShloMosaic.ValueIdx Idealize.ShloMosaic.ValueLayout Cert.MoeSpec

/-! ## The activation block as floats -/

/-- Entry (r, k) of the converted activation block is the integer entry (0, r, k) read as a real number. -/
theorem cast_apply (x0 : Vec Ideal S1x1024x2048 .i32) (r : Fin 1024) (k : Fin 2048) :
    k0_pay1 (F := Ideal) x0 (ix2 r k) = (((x0 (ix3 (0 : Fin 1) r k)).toInt : ℝ) : EReal) := by
  unfold k0_pay1
  rw [shapeCast_self]
  refine (sitofp_apply _ _).trans ?_
  rw [shapeCast_1ab_ab_apply]
  rfl

/-! ## The pieces of the output block -/

/-- The group of input channel k and its place inside the group recover k. -/
theorem grp_decomp (k : Fin 2048) : k.val = (grp k).val * 128 + k.val % 128 := by
  show k.val = k.val / 128 * 128 + k.val % 128
  omega

/-- The group scales laid out over the input channels: entry (n, k) is the scale of channel n's group k / 128. -/
theorem scale_apply (x2 : Vec Ideal S1x256x16 .f32) (h1 : S1x256x16.ShapeCasts S256x16)
    (h2 : FTy.bits .bf16 < FTy.bits .f32) (h3 : S256x16.ShapeCasts S256x16x1) (h4 : S256x16x1.ShapeCasts S256x16x1)
    (h5 : S256x16x1.Broadcasts S256x16x128) (h6 : S256x16x128.ShapeCasts S256x2048) (n : Fin 256) (k : Fin 2048) :
    shapeCast S256x2048
        (broadcastTo S256x16x128
          (shapeCast S256x16x1 (shapeCast S256x16x1 (truncf (F := Ideal) .bf16 (shapeCast S256x16 x2 h1) h2) h3) h4) h5)
        h6 (ix2 n k)
      = x2 (ix3 (0 : Fin 1) n (grp k)) := by
  rw [shapeCast_self]
  refine (shapeCast_abc_ap_apply _ h6 n (grp k) (⟨k.val % 128, Nat.mod_lt _ (by decide)⟩ : Fin 128) k rfl (grp_decomp k)).trans ?_
  refine (broadcastTo_ab1_abc_apply _ h5 n (grp k) _).trans ?_
  refine (shapeCast_ab_ab1_apply _ h3 n (grp k) (0 : Fin 1)).trans ?_
  refine (truncf_apply (shapeCast S256x16 x2 h1) h2 (ix2 n (grp k))).trans ?_
  exact shapeCast_1ab_ab_apply x2 h1 n (grp k)

/-- The token scales laid out over the output channels: entry (r, n) is the scale of token r. -/
theorem tok_apply (x3 : Vec Ideal S1x1024x1 .f32) (h1 : S1x1024x1.ShapeCasts S1024x1) (h2 : S1024x1.Broadcasts S1024x256)
    (r : Fin 1024) (n : Fin 256) :
    broadcastTo S1024x256 (shapeCast S1024x1 x3 h1) h2 (ix2 r n) = x3 (ix3 (0 : Fin 1) r (0 : Fin 1)) := by
  refine (broadcastTo_a1_ab_apply _ h2 r n).trans ?_
  exact shapeCast_1ab_ab_apply x3 h1 r (0 : Fin 1)

/-! ## The matrix product -/

/-- The contraction's left index: row of the output, then the contracted channel. -/
theorem lhs_row (i : S1024x256.Idx) (q : dot_S1024x2048_S256x2048_S1024x256_1_1_0_0_n_n.contr.Idx) :
    (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
theorem lhs_chan (i : S1024x256.Idx) (q : dot_S1024x2048_S256x2048_S1024x256_1_1_0_0_n_n.contr.Idx) :
    (dot_S1024x2048_S256x2048_S1024x256_1_1_0_0_n_n.lhsIdx i q 1).val = (q ⟨0, by decide⟩).val :=
  dot_S1024x2048_S256x2048_S1024x256_1_1_0_0_n_n.lhsIdx_val_of_single rfl i q
/-- The contraction's right index: column of the output, then the contracted channel. -/
theorem rhs_row (i : S1024x256.Idx) (q : dot_S1024x2048_S256x2048_S1024x256_1_1_0_0_n_n.contr.Idx) :
    (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
theorem rhs_chan (i : S1024x256.Idx) (q : dot_S1024x2048_S256x2048_S1024x256_1_1_0_0_n_n.contr.Idx) :
    (dot_S1024x2048_S256x2048_S1024x256_1_1_0_0_n_n.rhsIdx i q 1).val = (q ⟨0, by decide⟩).val :=
  dot_S1024x2048_S256x2048_S1024x256_1_1_0_0_n_n.rhsIdx_val_of_single rfl i q

/-- The matrix product into a zero accumulator, contracting the second axis of both operands: entry (r, n) is the sum
    over the 2048 input channels of the left operand at (r, k) times the right operand at (n, k). -/
theorem product_apply (lhs : FVec Ideal S1024x2048 .bf16) (rhs : FVec Ideal S256x2048 .bf16) (r : Fin 1024) (n : Fin 256) :
    matmul (F := Ideal) dot_S1024x2048_S256x2048_S1024x256_1_1_0_0_n_n none lhs rhs (constant (F := Ideal) S1024x256 .f32 0x00000000#32) (ix2 r n)
      = ∑ k : Fin 2048, lhs (ix2 r k) * rhs (ix2 n k) := by
  show FloatOps.matmul dot_S1024x2048_S256x2048_S1024x256_1_1_0_0_n_n none lhs rhs (constant (F := Ideal) S1024x256 .f32 0x00000000#32) (ix2 r n) = _
  rw [Ideal.matmul_constant_zero_apply, ← Equiv.sum_comp (contrEquiv1 dot_S1024x2048_S256x2048_S1024x256_1_1_0_0_n_n 2048 rfl rfl).symm]
  refine Finset.sum_congr rfl fun k _ => ?_
  have hk := contrEquiv1_symm_val dot_S1024x2048_S256x2048_S1024x256_1_1_0_0_n_n 2048 rfl rfl k
  have el : dot_S1024x2048_S256x2048_S1024x256_1_1_0_0_n_n.lhsIdx (ix2 r n) ((contrEquiv1 dot_S1024x2048_S256x2048_S1024x256_1_1_0_0_n_n 2048 rfl rfl).symm k) = ix2 r k := funext fun a => Fin.ext (by
    match a with
    | ⟨0, _⟩ => exact lhs_row _ _
    | ⟨1, _⟩ => exact (lhs_chan _ _).trans hk)
  have er : dot_S1024x2048_S256x2048_S1024x256_1_1_0_0_n_n.rhsIdx (ix2 r n) ((contrEquiv1 dot_S1024x2048_S256x2048_S1024x256_1_1_0_0_n_n 2048 rfl rfl).symm k) = ix2 n k := funext fun a => Fin.ext (by
    match a with
    | ⟨0, _⟩ => exact rhs_row _ _
    | ⟨1, _⟩ => exact (rhs_chan _ _).trans hk)
  rw [el, er]

/-! ## The output block -/

/-- The scaled weights: entry (n, k) is the integer weight (0, n, k) read as a real number times its group's scale. -/
theorem weight_apply (x1 : Vec Ideal S1x256x2048 .i32) (h0 : S1x256x2048.ShapeCasts S256x2048) (sc : FVec Ideal S256x2048 .bf16)
    (n : Fin 256) (k : Fin 2048) :
    mulf (sitofp (F := Ideal) .bf16 (shapeCast S256x2048 x1 h0)) sc (ix2 n k)
      = (((x1 (ix3 (0 : Fin 1) n k)).toInt : ℝ) : EReal) * sc (ix2 n k) := by
  refine (mulf_apply _ _ _).trans ?_
  refine congrArg (· * sc (ix2 n k)) ?_
  refine (sitofp_apply _ _).trans ?_
  rw [shapeCast_1ab_ab_apply]
  rfl

/-- Entry (0, r, n) of the output block: the sum over the input channels of the cached activation (r, k) times the
    integer weight (n, k) times the scale of its group, times the scale of token r. -/
theorem out_apply (v3 : Vec Ideal S1024x2048 .bf16) (x1 : Vec Ideal S1x256x2048 .i32) (x2 : Vec Ideal S1x256x16 .f32)
    (x3 : Vec Ideal S1x1024x1 .f32) (r : Fin 1024) (n : Fin 256) :
    k0_pay2 (F := Ideal) v3 x1 x2 x3 (ix3 (0 : Fin 1) r n)
      = (∑ k : Fin 2048, v3 (ix2 r k) * ((((x1 (ix3 (0 : Fin 1) n k)).toInt : ℝ) : EReal) * x2 (ix3 (0 : Fin 1) n (grp k))))
          * x3 (ix3 (0 : Fin 1) r (0 : Fin 1)) := by
  unfold k0_pay2
  refine (shapeCast_ab_1ab_apply _ _ (0 : Fin 1) r n).trans ?_
  refine (mulf_apply _ _ _).trans ?_
  rw [tok_apply, product_apply]
  refine congrArg (· * x3 (ix3 (0 : Fin 1) r (0 : Fin 1))) ?_
  refine Finset.sum_congr rfl fun k _ => ?_
  refine congrArg (v3 (ix2 r k) * ·) ?_
  rw [weight_apply, scale_apply]

end Cert.KernelIdeal.PayloadValue

end
-- ==== Proof.HostPrefix.lean ====
/-
  The host side of the kernel program before the kernel region, read at an index.

  Before the region is entered the program regroups the activation rows by expert (row `e·1024 + r` of the
  activation matrix becomes token `r` of expert `e`), regroups the token scales the same way, and folds the
  channel scale into every group scale: the group scale of expert `e`, output channel `n` and group `j` is
  multiplied by the channel scale of `(e, n)`, the latter repeated along the group axis.
-/
import proofs.«133291_j65936337928889_2_alg».proof.Proof.Gen.KernelIdeal.Frame.Runs
import proofs.«133291_j65936337928889_2_alg».proof.Proof.Spec
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.ValueIdx Cert.MoeSpec

/-! ## The three operations on arbitrary arrays -/

/-- Regrouping the rows of a matrix of 8192 rows by expert: entry `(e, r, k)` is row `e·1024 + r`, column `k`. -/
theorem regroup_rows_apply (x : S8192x2048.Idx → BitVec 32) (e : Fin 8) (r : Fin 1024) (k : Fin 2048) :
    shapeCast S8x1024x2048 x shapeCasts_S8192x2048_S8x1024x2048 (ix3 e r k) = x (ix2 (tokRow e r) k) :=
  shapeCast_apply x shapeCasts_S8192x2048_S8x1024x2048 (ix3 e r k) (ix2 (tokRow e r) k)
    (by rewrite [Shape.rowMajor_val_two, Shape.rowMajor_val_three]
        show (e.val * 1024 + r.val) * 2048 + k.val = (e.val * 1024 + r.val) * 2048 + k.val
        rfl)

/-- Regrouping a vector of 8192 entries by expert: entry `(e, r, 0)` is entry `e·1024 + r`. -/
theorem regroup_vec_apply (x : S8192.Idx → EReal) (e : Fin 8) (r : Fin 1024) (u : Fin 1) :
    shapeCast S8x1024x1 x shapeCasts_S8192_S8x1024x1 (ix3 e r u) = x (ix1 (tokRow e r)) :=
  shapeCast_apply x shapeCasts_S8192_S8x1024x1 (ix3 e r u) (ix1 (tokRow e r))
    (by rewrite [Shape.rowMajor_val_one, Shape.rowMajor_val_three]
        have hu : u.val < 1 := u.isLt
        show e.val * 1024 + r.val = (e.val * 1024 + r.val) * 1 + u.val
        omega)

/-- A channel-indexed array repeated along a new trailing group axis reads the channel's entry at every group. -/
theorem repeat_groups_apply (p : S8x2048.Idx → EReal) (e : Fin 8) (n : Fin 2048) (j : Fin 16) :
    broadcastInDim S8x2048x16 ![0, 1, 2] bcast_S8x2048x1_S8x2048x16_0_1_2
        (broadcastInDim S8x2048x1 ![0, 1] bcast_S8x2048_S8x2048x1_0_1 p) (ix3 e n j) = p (ix2 e n) := by
  refine (broadcastInDim_apply _ bcast_S8x2048x1_S8x2048x16_0_1_2 _ (ix3 e n j) (ix3 e n (0 : Fin 1)) (fun a => match a with
    | ⟨0, _⟩ => by show e.val = if (8 : Nat) = 1 then 0 else e.val; rw [if_neg (by decide)]
    | ⟨1, _⟩ => by show n.val = if (2048 : Nat) = 1 then 0 else n.val; rw [if_neg (by decide)]
    | ⟨2, _⟩ => by show 0 = if (1 : Nat) = 1 then 0 else j.val; rw [if_pos rfl])).trans ?_
  exact broadcastInDim_apply _ bcast_S8x2048_S8x2048x1_0_1 p (ix3 e n (0 : Fin 1)) (ix2 e n) (fun a => match a with
    | ⟨0, _⟩ => by show e.val = if (8 : Nat) = 1 then 0 else e.val; rw [if_neg (by decide)]
    | ⟨1, _⟩ => by show n.val = if (2048 : Nat) = 1 then 0 else n.val; rw [if_neg (by decide)])

/-- The group scales times the repeated channel scales, at `(e, n, j)`. -/
theorem fold_scale_apply (g : FVec Ideal S8x2048x16 .f32) (p : FVec Ideal S8x2048 .f32) (e : Fin 8) (n : Fin 2048) (j : Fin 16) :
    mulf (F := Ideal) g (broadcastInDim S8x2048x16 ![0, 1, 2] bcast_S8x2048x1_S8x2048x16_0_1_2
        (broadcastInDim S8x2048x1 ![0, 1] bcast_S8x2048_S8x2048x1_0_1 p)) (ix3 e n j)
      = g (ix3 e n j) * p (ix2 e n) := by
  refine (ValueIdx.mulf_apply g _ (ix3 e n j)).trans ?_
  exact congrArg (fun z => g (ix3 e n j) * z) (repeat_groups_apply p e n j)

/-! ## What the region finds -/

variable (m : (ℓ : Loc nD τ sig) → Buf (Elt Ideal) ℓ) (c : Dev nD)

/-- Token `r` of expert `e`, input channel `k`: row `e·1024 + r`, column `k` of the activation matrix. -/
theorem acts_apply (e : Fin 8) (r : Fin 1024) (k : Fin 2048) :
    (V m c main_v0 : S8x1024x2048.Idx → BitVec 32) (ix3 e r k)
      = (m ((c : Thread nD τ).loc main_arg0) : S8192x2048.Idx → BitVec 32) (ix2 (tokRow e r) k) := by
  have h : (V m c main_v0 : S8x1024x2048.Idx → BitVec 32)
      = shapeCast S8x1024x2048 (m ((c : Thread nD τ).loc main_arg0) : S8192x2048.Idx → BitVec 32)
          shapeCasts_S8192x2048_S8x1024x2048 := by
    show StableHlo.after hostOps0 (fun b => m (c, b)) (Proc.devRef .tc main_v0) = _
    after_results
    rfl
  rw [h]
  exact regroup_rows_apply _ e r k

/-- Token `r` of expert `e`: entry `e·1024 + r` of the token scales. -/
theorem tok_apply (e : Fin 8) (r : Fin 1024) (u : Fin 1) :
    (V m c main_v1 : S8x1024x1.Idx → EReal) (ix3 e r u)
      = (m ((c : Thread nD τ).loc main_arg2) : S8192.Idx → EReal) (ix1 (tokRow e r)) := by
  have h : (V m c main_v1 : S8x1024x1.Idx → EReal)
      = shapeCast S8x1024x1 (m ((c : Thread nD τ).loc main_arg2) : S8192.Idx → EReal)
          shapeCasts_S8192_S8x1024x1 := by
    show StableHlo.after hostOps0 (fun b => m (c, b)) (Proc.devRef .tc main_v1) = _
    after_results
    rfl
  rw [h]
  exact regroup_vec_apply _ e r u

/-- Expert `e`, output channel `n`, group `j`: the group scale times the channel scale of `(e, n)`. -/
theorem scale_apply (e : Fin 8) (n : Fin 2048) (j : Fin 16) :
    (V m c main_v4 : S8x2048x16.Idx → EReal) (ix3 e n j)
      = HMul.hMul (α := EReal) (β := EReal) (γ := EReal)
          ((m ((c : Thread nD τ).loc main_arg4) : S8x2048x16.Idx → EReal) (ix3 e n j))
          ((m ((c : Thread nD τ).loc main_arg3) : S8x2048.Idx → EReal) (ix2 e n)) := by
  have h : (V m c main_v4 : S8x2048x16.Idx → EReal)
      = mulf (F := Ideal) (s := S8x2048x16) (φ := .f32) (m ((c : Thread nD τ).loc main_arg4))
          (broadcastInDim (α := EReal) S8x2048x16 ![0, 1, 2] bcast_S8x2048x1_S8x2048x16_0_1_2
            (broadcastInDim (α := EReal) S8x2048x1 ![0, 1] bcast_S8x2048_S8x2048x1_0_1
              (m ((c : Thread nD τ).loc main_arg3)))) := by
    show StableHlo.after hostOps0 (fun b => m (c, b)) (Proc.devRef .tc main_v4) = _
    after_results
  rw [h]
  exact fold_scale_apply _ _ e n j

end Cert.KernelIdeal.HostPrefix

end
-- ==== Proof.KernelValue.lean ====
/-
  The kernel program's result, as one function of its five arguments.

  Each grid point writes back one block of the result: expert `e`'s 1024 token rows by one tile of 256 output channels.
  Entry `(r, n)` of that block is the inner product, over the 2048 input channels, of the expert's converted activations
  in row `r` with the tile's weights in channel `n`, each weight multiplied by its group's scale (which already carries
  the channel scale), times the token scale of row `r`. Reading every block of every array where the grid point finds it,
  and the host operations before the region at an index, this is the arrangement `scaledInside` of the specification at
  the entry's position in the result; the 64 blocks tile the result, so the whole result array is that function.
-/
import proofs.«133291_j65936337928889_2_alg».proof.Proof.KernelBlocks
import proofs.«133291_j65936337928889_2_alg».proof.Proof.KernelPayload
import proofs.«133291_j65936337928889_2_alg».proof.Proof.HostPrefix
import proofs.«133291_j65936337928889_2_alg».proof.Proof.Spec

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.MoeSpec Cert.KernelIdeal.Blocks

variable (m : (ℓ : Loc nD τ sig) → Buf (Elt Ideal) ℓ) (c : Dev nD)

/-- The result before the final regrouping of rows: the specification's first arrangement of the five arguments. -/
def result : S8x1024x2048.Idx → EReal :=
  scaledInside (m ((c : Thread nD τ).loc main_arg0) : S8192x2048.Idx → BitVec 32)
    (m ((c : Thread nD τ).loc main_arg1) : S8x2048x2048.Idx → BitVec 32)
    (m ((c : Thread nD τ).loc main_arg2) : S8192.Idx → EReal)
    (m ((c : Thread nD τ).loc main_arg3) : S8x2048.Idx → EReal)
    (m ((c : Thread nD τ).loc main_arg4) : S8x2048x16.Idx → EReal)

/-- One entry of the tile formed from an activation block, a weight block, a group-scale block and a token-scale block:
    the scaled inner product over the input channels, times the token scale. -/
theorem tile_entry (x0 : Vec Ideal S1x1024x2048 .i32) (x1 : Vec Ideal S1x256x2048 .i32) (x2 : Vec Ideal S1x256x16 .f32)
    (x3 : Vec Ideal S1x1024x1 .f32) (r : Fin 1024) (n : Fin 256) :
    k0_pay2 (F := Ideal) (k0_pay1 (F := Ideal) x0) x1 x2 x3 (ix3 (0 : Fin 1) r n)
      = (∑ k : Fin 2048, (((x0 (ix3 (0 : Fin 1) r k)).toInt : ℝ) : EReal)
            * ((((x1 (ix3 (0 : Fin 1) n k)).toInt : ℝ) : EReal) * x2 (ix3 (0 : Fin 1) n (grp k))))
          * x3 (ix3 (0 : Fin 1) r (0 : Fin 1)) := by
  refine (PayloadValue.out_apply (k0_pay1 (F := Ideal) x0) x1 x2 x3 r n).trans ?_
  refine congrArg (fun z => z * x3 (ix3 (0 : Fin 1) r (0 : Fin 1))) ?_
  exact Finset.sum_congr rfl fun k _ => by rw [PayloadValue.cast_apply]

/-- The tile a point forms, at row `r` and channel `n` of the tile, is the result at the point's expert, row `r`, and
    channel `n` of the point's tile. -/
theorem entry_eq (t : Fin cfg0.N) (r : Fin 1024) (n : Fin 256) :
    k0_pay2 (F := Ideal) (k0_pay1 (F := Ideal) (iblk m c 0 t)) (iblk m c 1 t) (iblk m c 2 t) (iblk m c 3 t) (ix3 (0 : Fin 1) r n)
      = result m c (ix3 (expert t) r (chan (tile t) n)) := by
  refine (tile_entry (iblk m c 0 t) (iblk m c 1 t) (iblk m c 2 t) (iblk m c 3 t) r n).trans ?_
  unfold result scaledInside
  rw [tokens_block m c t (0 : Fin 1) r (0 : Fin 1), HostPrefix.tok_apply m c (expert t) r (0 : Fin 1)]
  refine congrArg₂ (fun (a b : EReal) => a * b) (Finset.sum_congr rfl fun k _ => ?_) rfl
  rw [acts_block m c t (0 : Fin 1) r k, weights_block m c t (0 : Fin 1) n k, scales_block m c t (0 : Fin 1) n (grp k),
    HostPrefix.acts_apply m c (expert t) r k, HostPrefix.scale_apply m c (expert t) (chan (tile t) n) (grp k), V_main_arg1 m c]

/-- The same over an index of the block and an index of the result array related coordinate by coordinate. -/
theorem entry_at (t : Fin cfg0.N) (y : S1x1024x256.Idx) (i : S8x1024x2048.Idx)
    (h0 : (i 0).val = t.val / 8) (h1 : (i 1).val = (y 1).val) (h2 : (i 2).val = t.val % 8 * 256 + (y 2).val) :
    k0_pay2 (F := Ideal) (k0_pay1 (F := Ideal) (iblk m c 0 t)) (iblk m c 1 t) (iblk m c 2 t) (iblk m c 3 t) y = result m c i := by
  obtain ⟨u, r, n, rfl⟩ : ∃ (u : Fin 1) (r : Fin 1024) (n : Fin 256), y = ix3 u r n := ⟨y 0, y 1, y 2, eq_ix3 y⟩
  obtain rfl : u = 0 := Subsingleton.elim _ _
  have hi : i = ix3 (expert t) r (chan (tile t) n) := by
    funext a
    apply Fin.ext
    match a with
    | ⟨0, _⟩ => exact h0
    | ⟨1, _⟩ => exact h1
    | ⟨2, _⟩ => exact h2
  rw [hi]
  exact entry_eq m c t r n

/-- What point `t` writes back is block `t` of the result. -/
theorem flushed_eq (t : Fin cfg0.N) :
    (dats m 0 c).flushed 4 t = ((cfg0.win 4).blk t).view.read (Elt Ideal) (result m c) := by
  show (cfg0.win 4).cut (grid0.coords t) ((dats m 0 c).after 4 t) = _
  rw [after0_4, after_point m c t.val t.isLt]
  obtain ⟨-, -, -, -, ⟨e0, e1, e2⟩⟩ := index_facts t
  funext j
  rw [View.read_apply]
  show k0_pay2 (F := Ideal) (k0_pay1 (F := Ideal) (iblk m c 0 t)) (iblk m c 1 t) (iblk m c 2 t) (iblk m c 3 t) (j : S1x1024x256.Idx)
    = result m c (((cfg0.win 4).blk t).view.emb j)
  refine entry_at m c t (j : S1x1024x256.Idx) _ ?_ ?_ ?_
  · show win0_4.index t (0 : Fin 3) * 1 + 1 * (j 0).val = t.val / 8
    have hj : (j 0).val < 1 := (j 0).isLt
    omega
  · show win0_4.index t (1 : Fin 3) * 1024 + 1 * (j 1).val = (j 1).val
    omega
  · show win0_4.index t (2 : Fin 3) * 256 + 1 * (j 2).val = t.val % 8 * 256 + (j 2).val
    omega

/-- The result array after the region. -/
theorem final : (dats m 0 c).arrAt 4 cfg0.N = result m c :=
  (dats m 0 c).arrAt_eq_of_cover 4 (result m c) (fun t _ => flushed_eq m c t) covered

end Cert.KernelIdeal.Result

end
-- ==== Proof.KernelTail.lean ====
/-
  What the kernel program's result buffer holds at the end of a run.

  The program ends with one host operation after the pipelined region: a reshape of the region's output array
  (8 experts × 1024 token rows × 2048 channels) into the 8192 × 2048 result. The frame run states every array of the
  pipeline after the region (`arrAt`) and every other unscoped buffer as the operations after the region leave it; the
  result buffer is one of the latter. Reading the one reshape off that statement, the result is the reshape of the
  region's output array — nothing more is computed on the host — and the five argument buffers end as launched.
-/
import proofs.«133291_j65936337928889_2_alg».proof.Proof.Gen.KernelIdeal.Frame
import Idealize.ShloMosaic.Lib.Pipeline.Value
import Idealize.ShloMosaic.Lib.StableHlo.Run

noncomputable section

namespace Cert.KernelIdeal.Tail

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (ρ : Dev nD → PrngReg)

/-- After the region the output window's array (window 4) holds what the proof data computes for it; the buffers the
operations after the region start from agree with that. -/
theorem region_out (c : Dev nD) :
    Pipeline.withArrays (cfgs 0).spec c (V0 m c) (fun w => (dats m 0 c).arrAt w (cfgs 0).N) (Proc.devRef .tc main_v5)
      = (dats m 0 c).arrAt 4 cfg0.N :=
  Pipeline.withArrays_arr spec0 launch0.win.arr_inj c (V0 m c) (fun w => (dats m 0 c).arrAt w cfg0.N) 4

/-- The result buffer after the host operation that follows the region: the reshape of the region's output array. -/
theorem tail_eq (c : Dev nD) : Pipeline.afterTail₀ cfgs (dats m) 0 (V0 m) [hostOps1] c main_v6
      = shapeCast S8192x2048 ((dats m 0 c).arrAt 4 cfg0.N) shapeCasts_S8x1024x2048_S8192x2048 := by
  unfold Pipeline.afterTail₀
  show StableHlo.after hostOps1 _ (Proc.devRef .tc main_v6) = _
  after_results
  rw [region_out m c]
  rfl

/-- Every run of the program ends with the result buffer at the reshape of the region's output array, and with the
five argument buffers as launched. -/
theorem run_named : θ_run defs (onTc (τ := τ) (main (F := F))) ⟨m, fun _ => 0, ρ⟩ (fun r => ∀ c : Dev nD,
      r.2.mem ((c.tc : Thread nD τ).loc main_v6) = shapeCast S8192x2048 ((dats m 0 c).arrAt 4 cfg0.N) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tail

end
-- ==== Proof.RefIsSpec.lean ====
/-
  The reference program computes the outside-scaled arrangement of the grouped, group-scaled matrix product.

  Before its final reshape the reference holds an [8, 1024, 2048] array. Read at expert `e`, token `r` and output
  channel `n`, it is a product of three factors: the batched matrix product of the converted activations (the
  activation matrix regrouped as 8 blocks of 1024 token rows) with the group-scaled converted weights; the token
  scale (regrouped the same way and repeated along the channels); and the channel scale (repeated along the tokens).
  Each layout operation only renames an index, so the work is to say which entry of which argument each factor reads:

  * token `(e, r)`, input channel `k` of the regrouped activations is entry `(e·1024 + r, k)` of the matrix, because
    `((e·1024 + r)·2048 + k) / 2048 = e·1024 + r` and the remainder is `k`;
  * the group scales are repeated 128 times along a fourth axis and the last two axes merged, so input channel `k`
    of output channel `n` reads group `((e·2048 + n)·2048 + k) / 128 % 16 = k / 128`;
  * the token scale at `(e, r, ·)` is entry `e·1024 + r`; the channel scale at `(e, ·, n)` is entry `(e, n)`.

  With these index equations the reference's entry is, term by term, the specification's.
-/
import proofs.«133291_j65936337928889_2_alg».proof.Proof.Gen.ReferenceIdeal.Read
import proofs.«133291_j65936337928889_2_alg».proof.Proof.Spec

noncomputable section

open scoped BigOperators

namespace Cert.ReferenceIdeal.RefValue

open Cert.ReferenceIdeal Cert.ReferenceIdeal.Read Cert.MoeSpec Idealize.ShloMosaic Idealize.ShloMosaic.ValueIdx

/-- Regrouping the activation matrix as 8 blocks of 1024 rows: block `e`, row `r`, column `k` is row `e·1024 + r`,
column `k` of the matrix. -/
theorem act_idx (e : Fin 8) (r : Fin 1024) (n : Fin 2048) (k : Fin 2048) :
    idx_main_v0 (lidx_main_v6 (ix3 e r n) k) = ix2 (tokRow e r) k := by
  have he : e.val < 8 := e.isLt
  have hr : r.val < 1024 := r.isLt
  have hk : k.val < 2048 := k.isLt
  funext a
  refine Fin.ext ?_
  match a with
  | ⟨0, _⟩ => show ((e.val * 1024 + r.val) * 2048 + k.val) / 2048 = e.val * 1024 + r.val; omega
  | ⟨1, _⟩ => show ((e.val * 1024 + r.val) * 2048 + k.val) % 2048 = k.val; omega

/-- The right operand of the batched product at `(e, r, n)`, contraction position `k`, is weight `(e, n, k)`. -/
theorem wgt_idx (e : Fin 8) (r : Fin 1024) (n : Fin 2048) (k : Fin 2048) :
    ridx_main_v6 (ix3 e r n) k = ix3 e n k := by
  funext a
  refine Fin.ext ?_
  match a with
  | ⟨0, _⟩ => rfl
  | ⟨1, _⟩ => rfl
  | ⟨2, _⟩ => rfl

/-- Repeating each group scale 128 times and merging the last two axes: input channel `k` of output channel `n` of
expert `e` reads the scale of group `k / 128`. -/
theorem grp_idx (e : Fin 8) (n : Fin 2048) (k : Fin 2048) :
    idx_main_v3 (idx_main_v4 (ix3 e n k)) = ix3 e n (grp k) := by
  have he : e.val < 8 := e.isLt
  have hn : n.val < 2048 := n.isLt
  have hk : k.val < 2048 := k.isLt
  funext a
  refine Fin.ext ?_
  match a with
  | ⟨0, _⟩ => show ((e.val * 2048 + n.val) * 2048 + k.val) / 4194304 = e.val; omega
  | ⟨1, _⟩ => show ((e.val * 2048 + n.val) * 2048 + k.val) / 2048 % 2048 = n.val; omega
  | ⟨2, _⟩ => show ((e.val * 2048 + n.val) * 2048 + k.val) / 128 % 16 = k.val / 128; omega

/-- The token scale, regrouped as [8, 1024, 1] and repeated along the channels, at `(e, r, n)` is entry
`e·1024 + r`. -/
theorem tok_idx (e : Fin 8) (r : Fin 1024) (n : Fin 2048) :
    idx_main_v7 (idx_main_v8 (ix3 e r n)) = ix1 (tokRow e r) := by
  funext a
  refine Fin.ext ?_
  match a with
  | ⟨0, _⟩ => show (e.val * 1024 + r.val) * 1 + 0 = e.val * 1024 + r.val; omega

/-- The channel scale, repeated along the tokens, at `(e, r, n)` is entry `(e, n)`. -/
theorem chan_idx (e : Fin 8) (r : Fin 1024) (n : Fin 2048) :
    idx_main_v10 (idx_main_v11 (ix3 e r n)) = ix2 e n := by
  funext a
  refine Fin.ext ?_
  match a with
  | ⟨0, _⟩ => rfl
  | ⟨1, _⟩ => rfl

/-- One term of the batched product: the converted activation times the group-scaled converted weight. -/
theorem term_eq (x0 : (⟨S8192x2048, .i32⟩ : BufTy).Contents (Elt Ideal))
    (x1 : (⟨S8x2048x2048, .i32⟩ : BufTy).Contents (Elt Ideal))
    (x4 : (⟨S8x2048x16, .f32⟩ : BufTy).Contents (Elt Ideal))
    (e : Fin 8) (r : Fin 1024) (n : Fin 2048) (k : Fin 2048) :
    (val_main_v1 (F := Ideal) x0) (lidx_main_v6 (ix3 e r n) k) * (val_main_v5 (F := Ideal) x1 x4) (ridx_main_v6 (ix3 e r n) k)
      = (((x0 (ix2 (tokRow e r) k)).toInt : ℝ) : EReal)
          * ((((x1 (ix3 e n k)).toInt : ℝ) : EReal) * x4 (ix3 e n (grp k))) := by
  rw [val_main_v1_apply, val_main_v0_apply, act_idx, wgt_idx, val_main_v5_apply, val_main_v2_apply,
    val_main_v4_apply, val_main_v3_apply, grp_idx]
  rfl

/-- The reference's array before its final reshape is the outside-scaled specification of its five arguments. -/
theorem ref_eq (x0 : (⟨S8192x2048, .i32⟩ : BufTy).Contents (Elt Ideal))
    (x1 : (⟨S8x2048x2048, .i32⟩ : BufTy).Contents (Elt Ideal))
    (x2 : (⟨S8192, .f32⟩ : BufTy).Contents (Elt Ideal))
    (x3 : (⟨S8x2048, .f32⟩ : BufTy).Contents (Elt Ideal))
    (x4 : (⟨S8x2048x16, .f32⟩ : BufTy).Contents (Elt Ideal)) :
    Cert.ReferenceIdeal.Read.val_main_v12 (F := Ideal) x0 x1 x2 x3 x4
      = Cert.MoeSpec.scaledOutside x0 x1 x2 x3 x4 := by
  funext i
  obtain ⟨e, r, n, rfl⟩ : ∃ (e : Fin 8) (r : Fin 1024) (n : Fin 2048), i = ix3 e r n :=
    ⟨i 0, i 1, i 2, eq_ix3 i⟩
  rw [val_main_v12_apply, val_main_v9_apply, val_main_v6_apply, val_main_v8_apply, val_main_v7_apply, tok_idx,
    val_main_v11_apply, val_main_v10_apply, chan_idx, Finset.sum_congr rfl (fun k _ => term_eq x0 x1 x4 e r n k)]
  rfl

end Cert.ReferenceIdeal.RefValue

end
-- ==== Proof.SpecLaw.lean ====
/-
  The two arrangements of the grouped, group-scaled matrix product agree when the three float arrays hold real
  numbers.

  Write A k, W k for the integer activation and weight at input channel k, γ k for the scale of the group that k lies
  in, p for the channel scale and t for the token scale. The first arrangement is (Σ_k A k · (W k · (γ k · p))) · t,
  the second ((Σ_k A k · (W k · γ k)) · t) · p. In the reals both are Σ_k A k · W k · γ k · p · t: a product
  distributes over a finite sum and products commute. On the extended reals distributivity can fail at ±∞, so the
  statement asks that every scale is (the image of) a real; the integers are real by construction. The proof moves
  the inclusion ℝ → EReal outside the products and the sum, and finishes in ℝ.
-/
import proofs.«133291_j65936337928889_2_alg».proof.Proof.Spec

noncomputable section

open scoped BigOperators

namespace Cert.MoeSpec

open Idealize.ShloMosaic Idealize.ShloMosaic.ValueIdx

/-- The inclusion of the reals in the extended reals commutes with a finite sum. -/
private theorem coe_finsetSum {ι : Type} (s : Finset ι) (f : ι → ℝ) :
    ((∑ k ∈ s, f k : ℝ) : EReal) = ∑ k ∈ s, ((f k : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- The law over an abstract finite index type: with every factor real, the factor `p` may sit inside every term of
the sum or multiply the sum afterwards. -/
private theorem inside_eq_outside {ι : Type} [Fintype ι] (A W G : ι → ℝ) (p t : ℝ) :
    (∑ k : ι, ((A k : ℝ) : EReal) * (((W k : ℝ) : EReal) * (((G k : ℝ) : EReal) * ((p : ℝ) : EReal)))) * ((t : ℝ) : EReal)
      = ((∑ k : ι, ((A k : ℝ) : EReal) * (((W k : ℝ) : EReal) * ((G k : ℝ) : EReal))) * ((t : ℝ) : EReal))
          * ((p : ℝ) : EReal) := by
  -- every term of either sum is the image of a real product
  have hl : ∀ k : ι, ((A k : ℝ) : EReal) * (((W k : ℝ) : EReal) * (((G k : ℝ) : EReal) * ((p : ℝ) : EReal)))
      = ((A k * (W k * (G k * p)) : ℝ) : EReal) := fun k => by
    rw [EReal.coe_mul, EReal.coe_mul, EReal.coe_mul]
  have hr : ∀ k : ι, ((A k : ℝ) : EReal) * (((W k : ℝ) : EReal) * ((G k : ℝ) : EReal))
      = ((A k * (W k * G k) : ℝ) : EReal) := fun k => by
    rw [EReal.coe_mul, EReal.coe_mul]
  rw [Finset.sum_congr rfl (fun k _ => hl k), Finset.sum_congr rfl (fun k _ => hr k),
    ← coe_finsetSum, ← coe_finsetSum, ← EReal.coe_mul, ← EReal.coe_mul, ← EReal.coe_mul]
  -- now an identity between two reals
  refine congrArg (fun x : ℝ => (x : EReal)) ?_
  rw [Finset.sum_mul, Finset.sum_mul, Finset.sum_mul]
  refine Finset.sum_congr rfl fun k _ => ?_
  ring

/-- With real scales, folding the channel scale into every group scale before the sum gives the same number as
multiplying the finished, token-scaled sum by it. -/
theorem scaledInside_eq_scaledOutside (a : ShA.Idx → BitVec 32) (w : ShW.Idx → BitVec 32) (tok : ShTok.Idx → EReal)
    (pc : ShChan.Idx → EReal) (g : ShGrp.Idx → EReal)
    (htok : ∀ i, ∃ r : ℝ, tok i = (r : EReal)) (hpc : ∀ i, ∃ r : ℝ, pc i = (r : EReal))
    (hg : ∀ i, ∃ r : ℝ, g i = (r : EReal)) :
    scaledInside a w tok pc g = scaledOutside a w tok pc g := by
  funext i
  obtain ⟨t, ht⟩ := htok (ix1 (tokRow (i 0) (i 1)))
  obtain ⟨p, hp⟩ := hpc (ix2 (i 0) (i 2))
  choose γ hγ using hg
  unfold scaledInside scaledOutside
  rw [ht, hp]
  simp only [hγ]
  exact inside_eq_outside
    (fun k : Fin 2048 => (((a (ix2 (tokRow (i 0) (i 1)) k)).toInt : ℝ)))
    (fun k : Fin 2048 => (((w (ix3 (i 0) (i 2) k)).toInt : ℝ)))
    (fun k : Fin 2048 => γ (ix3 (i 0) (i 2) (grp k))) p t

end Cert.MoeSpec

end
-- ==== Proof.FiniteInputs.lean ====
/-
  The precondition read back: every entry of the three float arrays is a real number.

  The precondition is the conjunction, over the token scales, the channel scales and the group scales, of
  "every entry's absolute value is below +∞". An extended real whose absolute value is below +∞ is neither
  infinity, hence a real number.
-/
import proofs.«133291_j65936337928889_2_alg».proof.Proof.Gen.Pre_finite_inputs
import Idealize.ShloMosaic.Lib.ReduceAll
import Idealize.ShloMosaic.Lib.ValueIdx

noncomputable section

namespace Cert.Pre_finite_inputs.Finite

open Cert.Pre_finite_inputs Cert.Pre_finite_inputs.Gen Idealize.ShloMosaic Idealize.ShloMosaic.ValueIdx

/-- The scalar shape has one index. -/
instance : Subsingleton S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word `0x7F800000` denotes +∞. -/
theorem inf_word : Ideal.ofBits .f32 0x7F800000#32 = (⊤ : EReal) := by
  simp [Ideal.ofBits, Ideal.ieee]

/-- An entry at which "absolute value below the +∞ constant" holds is a real number. -/
theorem entry_real {s : Shape} (x : FVec Ideal s .f32) (bc : S_.BroadcastsInDim s (![] : Fin 0 → Fin s.rank)) (i : s.Idx)
    (h : cmpf .olt (Host.absf x) (broadcastInDim s ![] bc (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [inf_word] at h'
  have hlt : max (x i) (-(x i)) < ⊤ := by
    by_contra hn
    simp [Ideal.cmp, hn] at h'
  exact real_of_abs_lt_top _ hlt

/-- Under the precondition the token scales, the channel scales and the group scales hold real numbers. -/
theorem real_of_pre (x0 : IVec S8192x2048 32) (x1 : IVec S8x2048x2048 32) (x2 : FVec Ideal S8192 .f32)
    (x3 : FVec Ideal S8x2048 .f32) (x4 : FVec Ideal S8x2048x16 .f32)
    (h : Cert.Pre_finite_inputs.fn (F := Ideal) x0 x1 x2 x3 x4 = fun _ => 1#1) :
    (∀ i, ∃ r : ℝ, x2 i = (r : EReal)) ∧ (∀ i, ∃ r : ℝ, x3 i = (r : EReal)) ∧ (∀ i, ∃ r : ℝ, x4 i = (r : EReal)) := by
  have h0 := congrFun h ValueIdx.ix0
  dsimp only [fn] at h0
  obtain ⟨h12, h3⟩ := IntOp.andi_eq_one.1 h0
  obtain ⟨h1, h2⟩ := IntOp.andi_eq_one.1 h12
  exact ⟨fun i => entry_real x2 _ i (Host.reduce_andi_all _ _ _ _ ix0 h1 i),
    fun i => entry_real x3 _ i (Host.reduce_andi_all _ _ _ _ ix0 h2 i),
    fun i => entry_real x4 _ i (Host.reduce_andi_all _ _ _ _ ix0 h3 i)⟩

end Cert.Pre_finite_inputs.Finite

end
-- ==== Proof.lean ====
/-
  The certificate's five claims for the grouped, group-scaled matrix product.

  The kernel computes, for expert `e`, token row `r` and output channel `n`, the inner product over the input channels of
  the integer activations with the integer weights, each weight scaled by its group's scale times the channel's scale,
  and multiplies the sum by the token's scale. The reference sums the group-scaled products alone and multiplies the sum
  by the token scale and then by the channel scale. Over the extended reals the two agree once the three float inputs
  are real numbers — the channel scale moves out of the finite sum by distributivity —, which is what the precondition
  states. Both programs end by the same regrouping of the result's rows, so it suffices to compare the arrays before it.

  The three frames are the generated runs; the idealization rewrote nothing; the value claim joins the kernel's result
  array (read off its frame run block by block) and the reference's (read off its run operation by operation) through
  the specification's two arrangements.
-/
import proofs.«133291_j65936337928889_2_alg».proof.Defs
import proofs.«133291_j65936337928889_2_alg».proof.Proof.Gen.Kernel
import proofs.«133291_j65936337928889_2_alg».proof.Proof.Gen.Kernel.Frame
import proofs.«133291_j65936337928889_2_alg».proof.Proof.Gen.KernelIdeal
import proofs.«133291_j65936337928889_2_alg».proof.Proof.Gen.KernelIdeal.Frame
import proofs.«133291_j65936337928889_2_alg».proof.Proof.Gen.ReferenceIdeal
import proofs.«133291_j65936337928889_2_alg».proof.Proof.Gen.ReferenceIdeal.Run
import proofs.«133291_j65936337928889_2_alg».proof.Proof.Gen.ReferenceIdeal.Read
import proofs.«133291_j65936337928889_2_alg».proof.Proof.Gen.Pre_finite_inputs
import proofs.«133291_j65936337928889_2_alg».proof.Proof.KernelValue
import proofs.«133291_j65936337928889_2_alg».proof.Proof.KernelTail
import proofs.«133291_j65936337928889_2_alg».proof.Proof.RefIsSpec
import proofs.«133291_j65936337928889_2_alg».proof.Proof.SpecLaw
import proofs.«133291_j65936337928889_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the regrouped rows of the same array: the kernel's is the specification's first arrangement
    of the arguments, the reference's the second, and the two agree on real inputs. -/
theorem algebraic : Cert.algebraic_KernelIdeal_ReferenceIdeal := by
  intro m ρ m' ρ' hpre hagree
  refine ⟨fun c => shapeCast Cert.KernelIdeal.S8192x2048 (Cert.KernelIdeal.Result.result m c)
      Cert.KernelIdeal.Facts₀.shapeCasts_S8x1024x2048_S8192x2048, ?_, ?_⟩
  · refine (θ_run Cert.KernelIdeal.defs _ _).mono (fun _ h c => ⟨?_, (h c).2⟩)
      (Cert.KernelIdeal.Tail.run_named (F := Ideal) m ρ)
    rw [(h c).1, Cert.KernelIdeal.Result.final m c]
  · refine (θ_run Cert.ReferenceIdeal.defs _ _).mono (fun _ h c => ⟨(h c).1.trans ?_, (h c).2⟩)
      (Cert.ReferenceIdeal.Value.run (F := Ideal) m' ρ')
    obtain ⟨h2, h3, h4⟩ := Cert.Pre_finite_inputs.Finite.real_of_pre _ _ _ _ _ (hpre c)
    rw [Cert.ReferenceIdeal.Read.val_main_v13_eq]
    unfold Cert.ReferenceIdeal.Read.val_main_v13
    rw [Cert.ReferenceIdeal.RefValue.ref_eq, (hagree c).1, (hagree c).2.1, (hagree c).2.2.1, (hagree c).2.2.2.1,
      (hagree c).2.2.2.2]
    show shapeCast Cert.KernelIdeal.S8192x2048 (Cert.MoeSpec.scaledOutside _ _ _ _ _) _
      = shapeCast Cert.KernelIdeal.S8192x2048 (Cert.KernelIdeal.Result.result m c) _
    exact congrArg (fun z => shapeCast Cert.KernelIdeal.S8192x2048 z Cert.KernelIdeal.Facts₀.shapeCasts_S8x1024x2048_S8192x2048)
      (Cert.MoeSpec.scaledInside_eq_scaledOutside _ _ _ _ _ h2 h3 h4).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
